-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x20 : Shape := ⟨2, ![50000, 20]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x20 : S_.BroadcastsInDim S50000x20 (![] : Fin 0 → Fin S50000x20.rank)
  reducesTo_S50000x20_S_d0_1 : S50000x20.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S50000x20 32) (main_arg2 : IVec S50000x20 32) (main_arg3 : FVec F S50000x20 .f32) (main_arg4 : FVec F S50000x20 .f32) (main_arg5 : FVec F S128x128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x20 .f32 := Host.absf main_arg3
  let main_cst_0 : FVec F S_ .f32 := constant S_ .f32 0x7F800000#32
  let main_v5 : FVec F S50000x20 .f32 := broadcastInDim S50000x20 ![] bcast_S_S50000x20 main_cst_0
  let main_v6 : IVec S50000x20 1 := cmpf .olt main_v4 main_v5
  let main_c_1 : IVec S_ 1 := constantI S_ 1 1#1
  let main_v7 : IVec S_ 1 := (fun x v => Host.reduce IntOp.andi x v reducesTo_S50000x20_S_d0_1 h_S_) main_v6 main_c_1
  let main_v8 : IVec S_ 1 := andi main_v3 main_v7
  let main_v9 : FVec F S50000x20 .f32 := Host.absf main_arg4
  let main_cst_2 : FVec F S_ .f32 := constant S_ .f32 0x7F800000#32
  let main_v10 : FVec F S50000x20 .f32 := broadcastInDim S50000x20 ![] bcast_S_S50000x20 main_cst_2
  let main_v11 : IVec S50000x20 1 := cmpf .olt main_v9 main_v10
  let main_c_3 : IVec S_ 1 := constantI S_ 1 1#1
  let main_v12 : IVec S_ 1 := (fun x v => Host.reduce IntOp.andi x v reducesTo_S50000x20_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_v13 main_v16
-- ==== Kernel.lean ====
abbrev S50000x128 : Shape := ⟨2, ![50000, 128]⟩
abbrev S50000x20 : Shape := ⟨2, ![50000, 20]⟩
abbrev S128x128 : Shape := ⟨2, ![128, 128]⟩
abbrev S128 : Shape := ⟨1, ![128]⟩
abbrev S1000x128 : Shape := ⟨2, ![1000, 128]⟩
abbrev S50000x40 : Shape := ⟨2, ![50000, 40]⟩
abbrev S_ : Shape := ⟨0, ![]⟩
abbrev S50000x40x1 : Shape := ⟨3, ![50000, 40, 1]⟩
abbrev S50000x40x128 : Shape := ⟨3, ![50000, 40, 128]⟩
abbrev S50000 : Shape := ⟨1, ![50000]⟩
abbrev S50000x1 : Shape := ⟨2, ![50000, 1]⟩
abbrev S1x128 : Shape := ⟨2, ![1, 128]⟩
abbrev S200x40x128 : Shape := ⟨3, ![200, 40, 128]⟩
abbrev S200x40 : Shape := ⟨2, ![200, 40]⟩
abbrev S200x128 : Shape := ⟨2, ![200, 128]⟩
abbrev S200x1 : Shape := ⟨2, ![200, 1]⟩
abbrev S200x40x1 : Shape := ⟨3, ![200, 40, 1]⟩

abbrev nBuf : Space → Nat
  | .hbm => 36
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S50000x20, .i32⟩
  | .hbm, ⟨2, _⟩ => ⟨S50000x20, .i32⟩
  | .hbm, ⟨3, _⟩ => ⟨S50000x20, .f32⟩
  | .hbm, ⟨4, _⟩ => ⟨S50000x20, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S50000x128, .f32⟩
  | .hbm, ⟨9, _⟩ => ⟨S50000x128, .f32⟩
  | .hbm, ⟨10, _⟩ => ⟨S50000x40, .i32⟩
  | .hbm, ⟨11, _⟩ => ⟨S50000x40, .f32⟩
  | .hbm, ⟨12, _⟩ => ⟨S_, .i32⟩
  | .hbm, ⟨13, _⟩ => ⟨S50000x40, .i32⟩
  | .hbm, ⟨14, _⟩ => ⟨S50000x40, .i1⟩
  | .hbm, ⟨15, _⟩ => ⟨S50000x40, .f32⟩
  | .hbm, ⟨16, _⟩ => ⟨S50000x40, .f32⟩
  | .hbm, ⟨17, _⟩ => ⟨S_, .i32⟩
  | .hbm, ⟨18, _⟩ => ⟨S50000x40, .i32⟩
  | .hbm, ⟨19, _⟩ => ⟨S50000x40, .i1⟩
  | .hbm, ⟨20, _⟩ => ⟨S_, .i32⟩
  | .hbm, ⟨21, _⟩ => ⟨S50000x40, .i32⟩
  | .hbm, ⟨22, _⟩ => ⟨S50000x40, .i32⟩
  | .hbm, ⟨23, _⟩ => ⟨S50000x40, .i32⟩
  | .hbm, ⟨24, _⟩ => ⟨S50000x40x1, .i32⟩
  | .hbm, ⟨25, _⟩ => ⟨S50000x40x128, .f32⟩
  | .hbm, ⟨26, _⟩ => ⟨S_, .i32⟩
  | .hbm, ⟨27, _⟩ => ⟨S50000x40, .i32⟩
  | .hbm, ⟨28, _⟩ => ⟨S50000x40, .i1⟩
  | .hbm, ⟨29, _⟩ => ⟨S50000x40, .i32⟩
  | .hbm, ⟨30, _⟩ => ⟨S_, .i32⟩
  | .hbm, ⟨31, _⟩ => ⟨S50000, .i32⟩
  | .hbm, ⟨32, _⟩ => ⟨S50000x1, .i32⟩
  | .hbm, ⟨33, _⟩ => ⟨S50000x1, .f32⟩
  | .hbm, ⟨34, _⟩ => ⟨S1x128, .f32⟩
  | .hbm, ⟨35, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S128x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S200x40x128, .f32⟩
  | .local _ .vmem, ⟨9, _⟩ => ⟨S200x40x128, .f32⟩
  | .local _ .vmem, ⟨10, _⟩ => ⟨S200x40, .f32⟩
  | .local _ .vmem, ⟨11, _⟩ => ⟨S200x40, .f32⟩
  | .local _ .vmem, ⟨12, _⟩ => ⟨S200x128, .f32⟩
  | .local _ .vmem, ⟨13, _⟩ => ⟨S200x128, .f32⟩
  | .local _ .vmem, ⟨14, _⟩ => ⟨S200x1, .f32⟩
  | .local _ .vmem, ⟨15, _⟩ => ⟨S200x1, .f32⟩
  | .local _ .vmem, ⟨16, _⟩ => ⟨S1x128, .f32⟩
  | .local _ .vmem, ⟨17, _⟩ => ⟨S200x128, .f32⟩
  | .local _ .vmem, ⟨18, _⟩ => ⟨S200x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![250], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x40x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x40 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S200x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S200x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S200x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S50000x20_S50000x20_S50000x40_d1 : Shape.Concatenates [S50000x20, S50000x20] S50000x40 1
  bcast_S_S50000x40 : S_.BroadcastsInDim S50000x40 (![] : Fin 0 → Fin S50000x40.rank)
  bcast_S50000x40_S50000x40x1_0_1 : S50000x40.BroadcastsInDim S50000x40x1 (![0, 1] : Fin 2 → Fin S50000x40x1.rank)
  natLt_1_32 : 1 < 32
  reducesTo_S50000x40_S50000_d1 : S50000x40.ReducesTo [1] S50000
  h_S_ : 0 < S_.numel
  bcast_S50000_S50000x1_0 : S50000.BroadcastsInDim S50000x1 (![0] : Fin 1 → Fin S50000x1.rank)
  shapeCasts_S128_S1x128 : S128.ShapeCasts S1x128
  inb_S200x40x128_S200x40x128_0_0_0 : ∀ a, (![0, 0, 0] : Fin 3 → Nat) a + S200x40x128.size a ≤ S200x40x128.size a
  h_S200x40x128 : 0 < S200x40x128.numel
  shapeCasts_S200x40x128_S200x40x128 : S200x40x128.ShapeCasts S200x40x128
  inb_S200x40_S200x40_0_0 : ∀ a, (![0, 0] : Fin 2 → Nat) a + S200x40.size a ≤ S200x40.size a
  h_S200x40 : 0 < S200x40.numel
  shapeCasts_S200x40_S200x40 : S200x40.ShapeCasts S200x40
  shapeCasts_S200x40_S200x40x1 : S200x40.ShapeCasts S200x40x1
  broadcasts_S200x40x1_S200x40x128 : S200x40x1.Broadcasts S200x40x128
  reduces_S200x40x128_S200x128 : S200x40x128.Reduces [1] S200x128
  inb_S200x1_S200x1_0_0 : ∀ a, (![0, 0] : Fin 2 → Nat) a + S200x1.size a ≤ S200x1.size a
  h_S200x1 : 0 < S200x1.numel
  shapeCasts_S200x1_S200x1 : S200x1.ShapeCasts S200x1
  broadcasts_S200x1_S200x128 : S200x1.Broadcasts S200x128
  inb_S200x128_S200x128_0_0 : ∀ a, (![0, 0] : Fin 2 → Nat) a + S200x128.size a ≤ S200x128.size a
  h_S200x128 : 0 < S200x128.numel
  shapeCasts_S200x128_S200x128 : S200x128.ShapeCasts S200x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  dot_S1000x128_S128x128_S1000x128_1_0_0_1_n_n_wf : DotDims.WF S1000x128 S128x128 S1000x128 [1] [0] [0] [1] [] []
  gather_S50000x128_S50000x40x1_S50000x40x128_2_0_n_n_0_2_1128_wf : GatherDims.WF S50000x128 S50000x40x1 S50000x40x128 [2] [0] [] [0] [] 2 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S50000x128.size a
  hwx0_3 : ∀ i : grid0.Coords, EltTy.bits .f32 = 32 ∨ (Rect.block (s := S50000x128) S1000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x128.size a ≤ S50000x128.size a
  hwx0_4 : ∀ i : grid0.Coords, EltTy.bits .f32 = 32 ∨ (Rect.block (s := S50000x128) S1000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x40x128.size a ≤ S50000x40x128.size a
  hwx1_0 : ∀ i : grid1.Coords, EltTy.bits .f32 = 32 ∨ (Rect.block (s := S50000x40x128) S200x40x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x40.size a ≤ S50000x40.size a
  hwx1_1 : ∀ i : grid1.Coords, EltTy.bits .f32 = 32 ∨ (Rect.block (s := S50000x40) S200x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x128.size a ≤ S50000x128.size a
  hwx1_2 : ∀ i : grid1.Coords, EltTy.bits .f32 = 32 ∨ (Rect.block (s := S50000x128) S200x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x1.size a ≤ S50000x1.size a
  hwx1_3 : ∀ i : grid1.Coords, EltTy.bits .f32 = 32 ∨ (Rect.block (s := S50000x1) S200x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x128.size a ≤ S50000x128.size a
  hwx1_5 : ∀ i : grid1.Coords, EltTy.bits .f32 = 32 ∨ (Rect.block (s := S50000x128) S200x128.size (cc1_transform_5 i) (hinb1_5 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S50000x128_S50000x40x1_S50000x40x128_2_0_n_n_0_2_1128 : GatherDims S50000x128 S50000x40x1 S50000x40x128 where
  offsetDims := [2]
  collapsedSliceDims := [0]
  operandBatchingDims := []
  startIndicesBatchingDims := []
  startIndexMap := [0]
  indexVectorDim := 2
  sliceSizes := ![1, 128]
  wf := gather_S50000x128_S50000x40x1_S50000x40x128_2_0_n_n_0_2_1128_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v13) S200x40x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S200x40.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S200x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S200x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S200x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x20 : Shape := ⟨2, ![50000, 20]⟩
abbrev S128x128 : Shape := ⟨2, ![128, 128]⟩
abbrev S128 : Shape := ⟨1, ![128]⟩
abbrev S50000x40 : Shape := ⟨2, ![50000, 40]⟩
abbrev S50000x40x1 : Shape := ⟨3, ![50000, 40, 1]⟩
abbrev S_ : Shape := ⟨0, ![]⟩
abbrev S50000x40x128 : Shape := ⟨3, ![50000, 40, 128]⟩
abbrev S50000 : Shape := ⟨1, ![50000]⟩
abbrev S50000x1 : Shape := ⟨2, ![50000, 1]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x20, .i32⟩
  | .hbm, ⟨2, _⟩ => ⟨S50000x20, .i32⟩
  | .hbm, ⟨3, _⟩ => ⟨S50000x20, .f32⟩
  | .hbm, ⟨4, _⟩ => ⟨S50000x20, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S50000x40, .i32⟩
  | .hbm, ⟨9, _⟩ => ⟨S50000x40, .f32⟩
  | .hbm, ⟨10, _⟩ => ⟨S50000x40x1, .f32⟩
  | .hbm, ⟨11, _⟩ => ⟨S_, .i32⟩
  | .hbm, ⟨12, _⟩ => ⟨S50000x40, .i32⟩
  | .hbm, ⟨13, _⟩ => ⟨S50000x40, .i1⟩
  | .hbm, ⟨14, _⟩ => ⟨S50000x40, .f32⟩
  | .hbm, ⟨15, _⟩ => ⟨S50000x40x1, .f32⟩
  | .hbm, ⟨16, _⟩ => ⟨S50000x128, .f32⟩
  | .hbm, ⟨17, _⟩ => ⟨S50000x128, .f32⟩
  | .hbm, ⟨18, _⟩ => ⟨S_, .i32⟩
  | .hbm, ⟨19, _⟩ => ⟨S50000x40, .i32⟩
  | .hbm, ⟨20, _⟩ => ⟨S50000x40, .i1⟩
  | .hbm, ⟨21, _⟩ => ⟨S_, .i32⟩
  | .hbm, ⟨22, _⟩ => ⟨S50000x40, .i32⟩
  | .hbm, ⟨23, _⟩ => ⟨S50000x40, .i32⟩
  | .hbm, ⟨24, _⟩ => ⟨S50000x40, .i32⟩
  | .hbm, ⟨25, _⟩ => ⟨S50000x40x1, .i32⟩
  | .hbm, ⟨26, _⟩ => ⟨S50000x40x128, .f32⟩
  | .hbm, ⟨27, _⟩ => ⟨S_, .i32⟩
  | .hbm, ⟨28, _⟩ => ⟨S50000x40, .i32⟩
  | .hbm, ⟨29, _⟩ => ⟨S50000x40, .i1⟩
  | .hbm, ⟨30, _⟩ => ⟨S50000x40, .i32⟩
  | .hbm, ⟨31, _⟩ => ⟨S_, .i32⟩
  | .hbm, ⟨32, _⟩ => ⟨S50000, .i32⟩
  | .hbm, ⟨33, _⟩ => ⟨S50000x1, .i32⟩
  | .hbm, ⟨34, _⟩ => ⟨S50000x1, .f32⟩
  | .hbm, ⟨35, _⟩ => ⟨S50000x40x128, .f32⟩
  | .hbm, ⟨36, _⟩ => ⟨S50000x40x128, .f32⟩
  | .hbm, ⟨37, _⟩ => ⟨S50000x40x128, .f32⟩
  | .hbm, ⟨38, _⟩ => ⟨S50000x40x128, .f32⟩
  | .hbm, ⟨39, _⟩ => ⟨S_, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_cst : Ref sig .tc := ⟨.hbm, 47, rfl⟩
abbrev main_call0_v0 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  concatenates_S50000x20_S50000x20_S50000x40_d1 : Shape.Concatenates [S50000x20, S50000x20] S50000x40 1
  bcast_S50000x40_S50000x40x1_0_1 : S50000x40.BroadcastsInDim S50000x40x1 (![0, 1] : Fin 2 → Fin S50000x40x1.rank)
  bcast_S_S50000x40 : S_.BroadcastsInDim S50000x40 (![] : Fin 0 → Fin S50000x40.rank)
  natLt_1_32 : 1 < 32
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x40x1_S50000x40x128_0_1_2 : S50000x40x1.BroadcastsInDim S50000x40x128 (![0, 1, 2] : Fin 3 → Fin S50000x40x128.rank)
  reducesTo_S50000x40x128_S50000x128_d1 : S50000x40x128.ReducesTo [1] S50000x128
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  gather_S50000x128_S50000x40x1_S50000x40x128_2_0_n_n_0_2_1128_wf : GatherDims.WF S50000x128 S50000x40x1 S50000x40x128 [2] [0] [] [0] [] 2 ![1, 128]

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S50000x40x1_S50000x40x128_2_0_n_n_0_2_1128 : GatherDims S50000x128 S50000x40x1 S50000x40x128 where
  offsetDims := [2]
  collapsedSliceDims := [0]
  operandBatchingDims := []
  startIndicesBatchingDims := []
  startIndexMap := [0]
  indexVectorDim := 2
  sliceSizes := ![1, 128]
  wf := gather_S50000x128_S50000x40x1_S50000x40x128_2_0_n_n_0_2_1128_wf

class Facts : Prop extends Facts₀ where

variable [Facts]
-- ==== Proof.KRun.lean ====
/-
  The whole run of the idealized kernel program, with its result named.

  The program is three stretches: the projection region, a stretch of host operations, the reduce region.  The
  contents of the device's buffers at the three boundaries are a fold from the launch memory: `W1` after the first
  region (its two output arrays at what its write-backs leave), `W2` after the host operations, `W3` after the second
  region.  Every weakly fair execution terminates without a fault in a state whose unscoped buffers hold `W3`; read at
  the result buffer this names the result, and read at an argument it is the launch contents.
-/
import proofs.«121902_j27410481283416_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the arguments as
    launched. -/
theorem run_result : θ_run defs (onTc (τ := τ) (main (F := F))) ⟨m, fun _ => 0, ρ⟩ (fun r => ∀ c : Dev nD,
      r.2.mem ((c.tc : Thread nD τ).loc main_v21) = W3 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v21 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

end Cert.KernelIdeal.Whole

end
-- ==== Proof.HostStretch.lean ====
/-
  The host operations between the two regions, read as pure functions.

  From the two index arrays (each 50000 × 20) the program forms their concatenation `cat` (50000 × 40); the gather's
  start indices `nbrIdx` (a negative index moved up by 50000, then a trailing unit axis); the neighbour weight
  `weight` — the 0/1 mark "index ≠ −1" times the concatenated edge values —; the neighbour count `count`, the number
  of indices above −1 in a row, as a float column; and the bias as a 1 × 128 row `biasRow`.  The gathered rows are
  `Host.gather` of the second projection at `nbrIdx`.  Each buffer the second region reads holds, after the stretch,
  the corresponding function of the buffers before it.
-/
import proofs.«121902_j27410481283416_2_alg».proof.Proof.Gen.KernelIdeal.Frame
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]

/-- The two index arrays side by side. -/
def cat (a1 a2 : IVec S50000x20 32) : IVec S50000x40 32 :=
  concatenate S50000x40 1 [⟨S50000x20, a1⟩, ⟨S50000x20, a2⟩] Facts₀.concatenates_S50000x20_S50000x20_S50000x40_d1

/-- The gather's start indices: a negative index is moved up by the number of rows; a trailing unit axis. -/
def nbrIdx (a1 a2 : IVec S50000x20 32) : IVec S50000x40x1 32 :=
  broadcastInDim S50000x40x1 ![0, 1] Facts₀.bcast_S50000x40_S50000x40x1_0_1
    (select (cmpi .slt (cat a1 a2) (broadcastInDim S50000x40 ![] Facts₀.bcast_S_S50000x40 (constantI S_ 32 0#32)))
      (addi (cat a1 a2) (broadcastInDim S50000x40 ![] Facts₀.bcast_S_S50000x40 (constantI S_ 32 50000#32)))
      (cat a1 a2))

/-- The rows of `vw` the start indices name. -/
def gathered (vw : FVec F S50000x128 .f32) (a1 a2 : IVec S50000x20 32) : FVec F S50000x40x128 .f32 :=
  Host.gather gather_S50000x128_S50000x40x1_S50000x40x128_2_0_n_n_0_2_1128 vw (nbrIdx a1 a2)

/-- The 0/1 mark "index ≠ −1", as a float. -/
def mark (a1 a2 : IVec S50000x20 32) : FVec F S50000x40 .f32 :=
  uitofp .f32 (cmpi .ne (cat a1 a2) (broadcastInDim S50000x40 ![] Facts₀.bcast_S_S50000x40 (constantI S_ 32 4294967295#32)))

/-- The two edge arrays side by side. -/
def edges (e1 e2 : FVec F S50000x20 .f32) : FVec F S50000x40 .f32 :=
  concatenate S50000x40 1 [⟨S50000x20, e1⟩, ⟨S50000x20, e2⟩] Facts₀.concatenates_S50000x20_S50000x20_S50000x40_d1

/-- The neighbour weight: mark times edge value. -/
def weight (a1 a2 : IVec S50000x20 32) (e1 e2 : FVec F S50000x20 .f32) : FVec F S50000x40 .f32 :=
  mulf (mark a1 a2) (edges e1 e2)

/-- The neighbour count of each row (indices above −1), as a float column. -/
def count (a1 a2 : IVec S50000x20 32) : FVec F S50000x1 .f32 :=
  sitofp .f32 (broadcastInDim S50000x1 ![0] Facts₀.bcast_S50000_S50000x1_0
    (Host.reduce IntOp.addi
      (extui 32 (cmpi .sgt (cat a1 a2) (broadcastInDim S50000x40 ![] Facts₀.bcast_S_S50000x40 (constantI S_ 32 4294967295#32))) Facts₀.natLt_1_32)
      (constantI S_ 32 0#32) Facts₀.reducesTo_S50000x40_S50000_d1 Facts₀.h_S_))

/-- The bias as a 1 × 128 row. -/
def biasRow (b : FVec F S128 .f32) : FVec F S1x128 .f32 := shapeCast S1x128 b Facts₀.shapeCasts_S128_S1x128

variable (w : Valuation τ sig (Elt F))

/-- After the stretch the gathered buffer holds the rows of the second projection at the start indices. -/
theorem at_v13 : StableHlo.after hostOps1 w (Proc.devRef .tc main_v13)
    = gathered (w (Proc.devRef .tc main_v0_1)) (w (Proc.devRef .tc main_arg1)) (w (Proc.devRef .tc main_arg2)) := by
  after_results; rfl

/-- The weight buffer holds mark times edge value. -/
theorem at_v6 : StableHlo.after hostOps1 w (Proc.devRef .tc main_v6)
    = weight (w (Proc.devRef .tc main_arg1)) (w (Proc.devRef .tc main_arg2)) (w (Proc.devRef .tc main_arg3)) (w (Proc.devRef .tc main_arg4)) := by
  after_results; rfl

/-- The count buffer holds the neighbour count. -/
theorem at_v19 : StableHlo.after hostOps1 w (Proc.devRef .tc main_v19)
    = count (F := F) (w (Proc.devRef .tc main_arg1)) (w (Proc.devRef .tc main_arg2)) := by
  after_results; rfl

/-- The bias-row buffer holds the bias as a row. -/
theorem at_v20 : StableHlo.after hostOps1 w (Proc.devRef .tc main_v20) = biasRow (w (Proc.devRef .tc main_arg7)) := by
  after_results; rfl

/-- The first projection's buffer is not written by the stretch. -/
theorem at_v0_0 : StableHlo.after hostOps1 w (Proc.devRef .tc main_v0_0) = w (Proc.devRef .tc main_v0_0) := by
  after_results

end Cert.KernelIdeal.Stretch

end
-- ==== Proof.Spec.lean ====
/-
  The two formulas of this certificate, over the extended reals, index by index.

  `matProd x w` is the plain matrix product of a 50000 × 128 array by a 128 × 128 array: entry (r, c) is the sum over
  k < 128 of x(r, k) · w(k, c).

  `combine g wt zc den b` is the layer's output from the gathered neighbour rows `g` (50000 × 40 × 128), the neighbour
  weights `wt` (50000 × 40), the centre term `zc` (50000 × 128), the neighbour count `den` (a 50000 × 1 column) and
  the bias `b` (a 1 × 128 row): entry (r, f) is
      max ( (zc(r, f) + (∑ k < 40, g(r, k, f) · wt(r, k)) / den(r, 0)) + b(0, f),  0 ).
  The quotient is the extended reals' division as the float operations read it, and the zero is the value of the zero
  word; nothing here assumes an entry finite.
-/
import Idealize.ShloMosaic.PureOps.Ideal
import Idealize.ShloMosaic.Lib.ValueIdx

noncomputable section

namespace Cert.Spec

open Idealize.ShloMosaic Idealize.ShloMosaic.ValueIdx

/-- The row coordinate of an index of a 50000 × 128 array, as a number below 50000. -/
abbrev rowOf (i : (⟨2, ![50000, 128]⟩ : Shape).Idx) : Fin 50000 := ⟨(i 0).val, idx2_lt0 i⟩
/-- Its column coordinate, as a number below 128. -/
abbrev colOf (i : (⟨2, ![50000, 128]⟩ : Shape).Idx) : Fin 128 := ⟨(i 1).val, idx2_lt1 i⟩

/-- Every index of the array is (row, column). -/
theorem eq_row_col (i : (⟨2, ![50000, 128]⟩ : Shape).Idx) : i = ix2 (rowOf i) (colOf i) := by
  funext a; match a with | ⟨0, _⟩ => rfl | ⟨1, _⟩ => rfl

/-- The matrix product x · w, entry by entry. -/
def matProd (x : (⟨2, ![50000, 128]⟩ : Shape).Idx → EReal) (w : (⟨2, ![128, 128]⟩ : Shape).Idx → EReal) :
    (⟨2, ![50000, 128]⟩ : Shape).Idx → EReal :=
  fun i => ∑ k : Fin 128, x (ix2 (rowOf i) k) * w (ix2 k (colOf i))

/-- At (r, c) it is the sum over k of x(r, k) · w(k, c). -/
theorem matProd_ix2 (x : (⟨2, ![50000, 128]⟩ : Shape).Idx → EReal) (w : (⟨2, ![128, 128]⟩ : Shape).Idx → EReal)
    (r : Fin 50000) (c : Fin 128) : matProd x w (ix2 r c) = ∑ k : Fin 128, x (ix2 r k) * w (ix2 k c) := rfl

/-- The layer's output from the gathered rows, the weights, the centre term, the neighbour count and the bias. -/
def combine (g : (⟨3, ![50000, 40, 128]⟩ : Shape).Idx → EReal) (wt : (⟨2, ![50000, 40]⟩ : Shape).Idx → EReal)
    (zc : (⟨2, ![50000, 128]⟩ : Shape).Idx → EReal) (den : (⟨2, ![50000, 1]⟩ : Shape).Idx → EReal)
    (b : (⟨2, ![1, 128]⟩ : Shape).Idx → EReal) : (⟨2, ![50000, 128]⟩ : Shape).Idx → EReal :=
  fun i => max ((zc (ix2 (rowOf i) (colOf i))
      + Ideal.div (∑ k : Fin 40, g (ix3 (rowOf i) k (colOf i)) * wt (ix2 (rowOf i) k)) (den (ix2 (rowOf i) (0 : Fin 1))))
      + b (ix2 (0 : Fin 1) (colOf i))) (Ideal.ofBits .f32 0x00000000#32)

/-- At (r, f): max((zc(r, f) + (∑ k, g(r, k, f) · wt(r, k)) / den(r, 0)) + b(0, f), 0). -/
theorem combine_ix2 (g : (⟨3, ![50000, 40, 128]⟩ : Shape).Idx → EReal) (wt : (⟨2, ![50000, 40]⟩ : Shape).Idx → EReal)
    (zc : (⟨2, ![50000, 128]⟩ : Shape).Idx → EReal) (den : (⟨2, ![50000, 1]⟩ : Shape).Idx → EReal)
    (b : (⟨2, ![1, 128]⟩ : Shape).Idx → EReal) (r : Fin 50000) (f : Fin 128) :
    combine g wt zc den b (ix2 r f)
      = max ((zc (ix2 r f) + Ideal.div (∑ k : Fin 40, g (ix3 r k f) * wt (ix2 r k)) (den (ix2 r (0 : Fin 1))))
          + b (ix2 (0 : Fin 1) f)) (Ideal.ofBits .f32 0x00000000#32) := rfl

end Cert.Spec

end
-- ==== Proof.RefAt.lean ====
/-
  The reference's result read at one entry.

  At entry (r, f) the reference computes
      max ( (Σ_j x(r, j) · Wc(j, f)  +  (0 + Σ_k (G(r, k, f) · mark(r, k)) · edge(r, k)) / count(r, 0))  +  bias(f),  0 )
  where G is the gathered array (the rows of the second product named by the start indices), mark the 0/1 array
  "index ≠ −1", edge the concatenated edge values and count the neighbour count: every layout operation between the
  stages only re-reads a stage at the same (r, k) or (r, 0), which is what the index equations below say.
-/
import proofs.«121902_j27410481283416_2_alg».proof.Proof.Gen.ReferenceIdeal.Read
import proofs.«121902_j27410481283416_2_alg».proof.Proof.Spec

noncomputable section

namespace Cert.ReferenceIdeal.At

open Cert.ReferenceIdeal Cert.ReferenceIdeal.Gen Cert.ReferenceIdeal.Read
open Idealize.ShloMosaic Idealize.ShloMosaic.ValueIdx

/-! ## Where each layout operation reads -/

theorem i26 (r : Fin 50000) (f : Fin 128) (k : Fin 40) : idx_main_v26 (ix2 r f) k = ix3 r k f :=
  funext fun a => Fin.ext (by match a with | ⟨0, _⟩ => rfl | ⟨1, _⟩ => rfl | ⟨2, _⟩ => rfl)
theorem i22 (r : Fin 50000) (k : Fin 40) (f : Fin 128) : idx_main_v22 (ix3 r k f) = ix3 r k (0 : Fin 1) :=
  funext fun a => Fin.ext (by match a with | ⟨0, _⟩ => rfl | ⟨1, _⟩ => rfl | ⟨2, _⟩ => rfl)
theorem i24 (r : Fin 50000) (k : Fin 40) (f : Fin 128) : idx_main_v24 (ix3 r k f) = ix3 r k (0 : Fin 1) :=
  funext fun a => Fin.ext (by match a with | ⟨0, _⟩ => rfl | ⟨1, _⟩ => rfl | ⟨2, _⟩ => rfl)
theorem i6 (r : Fin 50000) (k : Fin 40) : idx_main_v6 (ix3 r k (0 : Fin 1)) = ix2 r k :=
  funext fun a => Fin.ext (by match a with | ⟨0, _⟩ => rfl | ⟨1, _⟩ => rfl)
theorem i2 (r : Fin 50000) (k : Fin 40) : idx_main_v2 (ix3 r k (0 : Fin 1)) = ix2 r k :=
  funext fun a => Fin.ext (by match a with | ⟨0, _⟩ => rfl | ⟨1, _⟩ => rfl)
theorem i27 (r : Fin 50000) (f : Fin 128) : idx_main_v27 (ix2 r f) = ix2 r (0 : Fin 1) :=
  funext fun a => Fin.ext (by match a with | ⟨0, _⟩ => rfl | ⟨1, _⟩ => rfl)
theorem i31 (r : Fin 50000) (f : Fin 128) : idx_main_v30 (idx_main_v31 (ix2 r f)) = ix1 f :=
  funext fun a => Fin.ext (by match a with | ⟨0, _⟩ => rfl)
theorem il7 (r : Fin 50000) (f : Fin 128) (j : Fin 128) : lidx_main_v7 (ix2 r f) j = ix2 r j :=
  funext fun a => Fin.ext (by match a with | ⟨0, _⟩ => rfl | ⟨1, _⟩ => rfl)
theorem ir7 (r : Fin 50000) (f : Fin 128) (j : Fin 128) : ridx_main_v7 (ix2 r f) j = ix2 j f :=
  funext fun a => Fin.ext (by match a with | ⟨0, _⟩ => rfl | ⟨1, _⟩ => rfl)
theorem il8 (r : Fin 50000) (f : Fin 128) (j : Fin 128) : lidx_main_v8 (ix2 r f) j = ix2 r j :=
  funext fun a => Fin.ext (by match a with | ⟨0, _⟩ => rfl | ⟨1, _⟩ => rfl)
theorem ir8 (r : Fin 50000) (f : Fin 128) (j : Fin 128) : ridx_main_v8 (ix2 r f) j = ix2 j f :=
  funext fun a => Fin.ext (by match a with | ⟨0, _⟩ => rfl | ⟨1, _⟩ => rfl)

/-! ## The two host products are the plain matrix product -/

variable (x0 : (⟨S50000x128, .f32⟩ : BufTy).Contents (Elt Ideal)) (x1 x2 : (⟨S50000x20, .i32⟩ : BufTy).Contents (Elt Ideal))
  (x3 x4 : (⟨S50000x20, .f32⟩ : BufTy).Contents (Elt Ideal)) (x5 x6 : (⟨S128x128, .f32⟩ : BufTy).Contents (Elt Ideal))
  (x7 : (⟨S128, .f32⟩ : BufTy).Contents (Elt Ideal))

theorem prod7 : val_main_v7 (F := Ideal) x0 x5 = Cert.Spec.matProd x0 x5 := by
  funext i
  rw [Cert.Spec.eq_row_col i, val_main_v7_apply, Cert.Spec.matProd_ix2]
  exact Finset.sum_congr rfl fun j _ => by rw [il7, ir7]

theorem prod8 : val_main_v8 (F := Ideal) x0 x6 = Cert.Spec.matProd x0 x6 := by
  funext i
  rw [Cert.Spec.eq_row_col i, val_main_v8_apply, Cert.Spec.matProd_ix2]
  exact Finset.sum_congr rfl fun j _ => by rw [il8, ir8]

/-! ## The result at an entry -/

/-- One term of the reference's neighbour sum: the gathered entry times the mark, times the edge value. -/
theorem term_at (r : Fin 50000) (k : Fin 40) (f : Fin 128) :
    val_main_v25 (F := Ideal) x0 x1 x2 x3 x4 x6 (ix3 r k f)
      = (val_main_v15 (F := Ideal) x0 x1 x2 x6 (ix3 r k f) * val_main_v5 (F := Ideal) x1 x2 (ix2 r k))
          * val_main_v1 (F := Ideal) x3 x4 (ix2 r k) := by
  rw [val_main_v25_apply, val_main_v23_apply, val_main_v22_apply, val_main_v6_apply, val_main_v24_apply,
    val_main_v2_apply, i22, i24, i6, i2]
  rfl

/-- The reference's result at (r, f). -/
theorem result_at (r : Fin 50000) (f : Fin 128) :
    val_main_v33 (F := Ideal) x0 x1 x2 x3 x4 x5 x6 x7 (ix2 r f)
      = max ((Cert.Spec.matProd x0 x5 (ix2 r f)
            + Ideal.div (Ideal.ofBits .f32 0x00000000#32
                + ∑ k : Fin 40, (val_main_v15 (F := Ideal) x0 x1 x2 x6 (ix3 r k f) * val_main_v5 (F := Ideal) x1 x2 (ix2 r k))
                    * val_main_v1 (F := Ideal) x3 x4 (ix2 r k))
                (val_main_v21 (F := Ideal) x1 x2 (ix2 r (0 : Fin 1))))
          + x7 (ix1 f)) (Ideal.ofBits .f32 0x00000000#32) := by
  rw [val_main_v33_apply, val_main_v32_apply, val_main_v29_apply, val_main_v28_apply, val_main_v26_apply,
    val_main_v31_apply, val_main_v30_apply, val_main_v27_apply, val_main_call0_v0_apply, val_main_call0_cst_apply,
    val_main_cst_apply, prod7, i27, i31]
  simp only [i26, term_at]
  rfl

end Cert.ReferenceIdeal.At

end
-- ==== Proof.Bridge.lean ====
/-
  The kernel program's result and the reference's result are one function of the arguments.

  The kernel program ends with
      max ( (P(r, f) + (Σ_k G(r, k, f) · (mark(r, k) · edge(r, k))) / count(r, 0)) + bias(f), 0 )
  and the reference with
      max ( (P(r, f) + (0 + Σ_k (G(r, k, f) · mark(r, k)) · edge(r, k)) / count(r, 0)) + bias(f), 0 ),
  P = x · Wc, G the rows of x · Wn named by the start indices.  The gathered array, the mark, the edge values and the
  count are the same host operations of the same arguments on both sides, and the two products are the same sums; what
  is left is that the product of extended reals is associative and that adding the zero word's value changes nothing.
  No entry is assumed finite.
-/
import proofs.«121902_j27410481283416_2_alg».proof.Proof.HostStretch
import proofs.«121902_j27410481283416_2_alg».proof.Proof.RefAt
import proofs.«121902_j27410481283416_2_alg».proof.Proof.Spec
import Idealize.ShloMosaic.Lib.Pipeline.Value
import Idealize.ShloMosaic.PureOps.Ideal.Laws

noncomputable section

namespace Cert.Bridge

open Idealize.ShloMosaic Idealize.ShloMosaic.ValueIdx
open Cert.KernelIdeal (S50000x128 S50000x20 S128x128 S128 S50000x40 S50000x40x128 S50000x1 S1x128)
open Cert.KernelIdeal.Stretch
open Cert.ReferenceIdeal.Read

variable (x0 : FVec Ideal S50000x128 .f32) (x1 x2 : IVec S50000x20 32) (x3 x4 : FVec Ideal S50000x20 .f32)
  (x5 x6 : FVec Ideal S128x128 .f32) (x7 : FVec Ideal S128 .f32)

/-- The kernel program's result as a function of the eight arguments. -/
def result : S50000x128.Idx → EReal :=
  Cert.Spec.combine (gathered (F := Ideal) (Cert.Spec.matProd x0 x6) x1 x2) (weight (F := Ideal) x1 x2 x3 x4)
    (Cert.Spec.matProd x0 x5) (count (F := Ideal) x1 x2) (biasRow (F := Ideal) x7)

/-- The gathered rows: the same gather of the same product at the same start indices. -/
theorem gathered_eq : gathered (F := Ideal) (Cert.Spec.matProd x0 x6) x1 x2 = val_main_v15 (F := Ideal) x0 x1 x2 x6 := by
  unfold val_main_v15
  rw [Cert.ReferenceIdeal.At.prod8]
  rfl

/-- The mark "index ≠ −1". -/
theorem mark_eq : mark (F := Ideal) x1 x2 = val_main_v5 (F := Ideal) x1 x2 := rfl
/-- The concatenated edge values. -/
theorem edges_eq : edges (F := Ideal) x3 x4 = val_main_v1 (F := Ideal) x3 x4 := rfl
/-- The neighbour count. -/
theorem count_eq : count (F := Ideal) x1 x2 = val_main_v21 (F := Ideal) x1 x2 := rfl

/-- The bias row at column f is the bias at f. -/
theorem biasRow_apply (f : Fin 128) : biasRow (F := Ideal) x7 (ix2 (0 : Fin 1) f) = x7 (ix1 f) :=
  shapeCast_apply x7 _ _ _ (by
    rw [Shape.rowMajor_val_one, Shape.rowMajor_val_two]
    show f.val = 0 * 128 + f.val
    omega)

/-- The two results agree entry by entry. -/
theorem result_eq : result x0 x1 x2 x3 x4 x5 x6 x7 = val_main_v33 (F := Ideal) x0 x1 x2 x3 x4 x5 x6 x7 := by
  funext i
  rw [Cert.Spec.eq_row_col i]
  generalize Cert.Spec.rowOf i = r
  generalize Cert.Spec.colOf i = f
  rw [Cert.ReferenceIdeal.At.result_at]
  unfold result
  rw [Cert.Spec.combine_ix2, gathered_eq, count_eq, biasRow_apply, Ideal.ofBits_zero_f32, zero_add]
  refine congrArg (fun s => max ((Cert.Spec.matProd x0 x5 (ix2 r f) + Ideal.div s (val_main_v21 (F := Ideal) x1 x2 (ix2 r (0 : Fin 1)))) + x7 (ix1 f)) (0 : EReal)) ?_
  refine Finset.sum_congr rfl fun k _ => ?_
  show val_main_v15 (F := Ideal) x0 x1 x2 x6 (ix3 r k f) * (mark (F := Ideal) x1 x2 (ix2 r k) * edges (F := Ideal) x3 x4 (ix2 r k)) = _
  rw [mark_eq, edges_eq, mul_assoc]

end Cert.Bridge

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.ProjArr.lean ====
/-
  The projection region, from blocks to arrays.  The region walks the 50000 × 128 input in 50 blocks of 1000 rows;
  at each block it multiplies the block by each of the two whole 128 × 128 weight arrays and writes the two products
  back as the same 1000 rows of the two result arrays.  An entry of a block product is the dot product of a row of the
  block with a column of the weights; row p of block t is row 1000 · t + p of the input; the 50 blocks cover every row.
  So each result array ends holding the plain matrix product of the input by its weight array.
-/
import proofs.«121902_j27410481283416_2_alg».proof.Proof.Gen.KernelIdeal.Frame
import proofs.«121902_j27410481283416_2_alg».proof.Proof.Spec
import proofs.«121902_j27410481283416_2_alg».proof.Proof.LibPlainDot
import Idealize.ShloMosaic.Lib.Pipeline.Value
noncomputable section
open Idealize.ShloMosaic Idealize.ShloMosaic.TcCoe Idealize.SL.Sem Idealize.ShloMosaic.ValueIdx
open Idealize.ShloMosaic.Pipeline (Dat)
namespace Cert.KernelIdeal.ProjArr
open Cert.KernelIdeal Cert.KernelIdeal.Gen
variable (V : (c : Dev nD) → (b : Ref sig .tc) → Buf (Elt Ideal) ((c : Thread nD τ).loc b))

/-! ## A block product at an entry -/

/-- The block product's dimension numbers: the left operand's second axis against the right operand's first. -/
abbrev dotD : DotDims S1000x128 S128x128 S1000x128 := dot_S1000x128_S128x128_S1000x128_1_0_0_1_n_n

/-- The left operand's row coordinate is the output's row coordinate. -/
theorem dot_lhs_row (j : S1000x128.Idx) (q : dotD.contr.Idx) : (dotD.lhsIdx j q 0).val = (j 0).val := by
  unfold DotDims.lhsIdx
  rw [dif_neg (show ¬(0 : Fin S1000x128.rank) ∈ dotD.lhsBatch by decide), dif_pos (show (0 : Fin S1000x128.rank) ∈ dotD.lhsNonContracting by decide)]
  rfl

/-- The right operand's column coordinate is the output's column coordinate. -/
theorem dot_rhs_col (j : S1000x128.Idx) (q : dotD.contr.Idx) : (dotD.rhsIdx j q 1).val = (j 1).val := by
  unfold DotDims.rhsIdx
  rw [dif_neg (show ¬(1 : Fin S128x128.rank) ∈ dotD.rhsBatch by decide), dif_pos (show (1 : Fin S128x128.rank) ∈ dotD.rhsNonContracting by decide)]
  rfl

/-- Entry (p, f) of the first product of a block x0 by weights x: the dot product of row p of x0 and column f of x
    (over the extended reals the narrowing of the operands changes nothing). -/
theorem pay2_apply (x0 : Vec Ideal S1000x128 .f32) (x : Vec Ideal S128x128 .f32) (p : Fin 1000) (f : Fin 128) :
    k0_pay2 x0 x (ix2 p f) = ∑ k : Fin 128, x0 (ix2 p k) * x (ix2 k f) :=
  Cert.LibPlainDot.matmul_zero_apply (M := 1000) (K := 128) (N := 128) dotD rfl rfl rfl rfl dot_lhs_row dot_rhs_col none
    (k0_pay1 x0) (truncf .bf16 x bitsLt_bf16_f32) p f

/-- Entry (p, f) of the second product, the same with the second weights. -/
theorem pay3_apply (x0 : Vec Ideal S1000x128 .f32) (x : Vec Ideal S128x128 .f32) (p : Fin 1000) (f : Fin 128) :
    k0_pay3 x0 x (ix2 p f) = ∑ k : Fin 128, x0 (ix2 p k) * x (ix2 k f) :=
  Cert.LibPlainDot.matmul_zero_apply (M := 1000) (K := 128) (N := 128) dotD rfl rfl rfl rfl dot_lhs_row dot_rhs_col none
    (k0_pay1 x0) (truncf .bf16 x bitsLt_bf16_f32) p f

/-! ## Which rows a block holds -/

theorem hz : (![0, 0] : Fin 2 → Nat) = fun _ => 0 := funext fun a => by fin_cases a <;> rfl

/-- The block indices over the grid: at point t the input window and both result windows are at row block t, column
    block 0; the two weight windows are always at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The grid has 50 points. -/
theorem point_lt (t : Fin cfg0.N) : t.val < 50 := by
  have hN : cfg0.N = 50 := N_0
  have := t.isLt
  omega

/-- Row p of the input block at point t is row 1000 · t + p of the input array. -/
theorem in_blk_apply (c : Dev nD) (t : Fin cfg0.N) (p : Fin 1000) (k : Fin 128) (r : Fin 50000)
    (hr : r.val = t.val * 1000 + p.val) :
    (iblk0 V c 0 t : Vec Ideal S1000x128 .f32) (ix2 p k) = (V c main_arg0 : S50000x128.Idx → EReal) (ix2 r k) := by
  obtain ⟨e0, e1, -⟩ := idx_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 1000 + 1 * p.val = r.val; omega
  | ⟨1, _⟩ => show win0_0.index t (1 : Fin 2) * 128 + 1 * k.val = k.val; omega

/-- The first weight block at any point is the whole first weight array. -/
theorem w1_blk_apply (c : Dev nD) (t : Fin cfg0.N) (k : Fin 128) (f : Fin 128) :
    (iblk0 V c 1 t : Vec Ideal S128x128 .f32) (ix2 k f) = (V c main_arg5 : S128x128.Idx → EReal) (ix2 k f) := by
  obtain ⟨-, -, e0, e1, -⟩ := idx_facts t
  show V c main_arg5 (((cfg0.win 1).blk t).view.emb (ix2 k f)) = V c main_arg5 (ix2 k f)
  refine congrArg (V c main_arg5) (funext fun a => Fin.ext ?_)
  match a with
  | ⟨0, _⟩ => show win0_1.index t (0 : Fin 2) * 128 + 1 * k.val = k.val; omega
  | ⟨1, _⟩ => show win0_1.index t (1 : Fin 2) * 128 + 1 * f.val = f.val; omega

/-- The second weight block at any point is the whole second weight array. -/
theorem w2_blk_apply (c : Dev nD) (t : Fin cfg0.N) (k : Fin 128) (f : Fin 128) :
    (iblk0 V c 2 t : Vec Ideal S128x128 .f32) (ix2 k f) = (V c main_arg6 : S128x128.Idx → EReal) (ix2 k f) := by
  obtain ⟨-, -, -, -, e0, e1, -⟩ := idx_facts t
  show V c main_arg6 (((cfg0.win 2).blk t).view.emb (ix2 k f)) = V c main_arg6 (ix2 k f)
  refine congrArg (V c main_arg6) (funext fun a => Fin.ext ?_)
  match a with
  | ⟨0, _⟩ => show win0_2.index t (0 : Fin 2) * 128 + 1 * k.val = k.val; omega
  | ⟨1, _⟩ => show win0_2.index t (1 : Fin 2) * 128 + 1 * f.val = f.val; omega

/-- Entry (p, f) of the first result block at point t sits at row 1000 · t + p, column f of the first result array. -/
theorem out3_emb (t : Fin cfg0.N) (p : Fin 1000) (f : Fin 128) (r : Fin 50000) (hr : r.val = t.val * 1000 + p.val) :
    (((cfg0.win 3).blk t).view.emb (ix2 p f) : S50000x128.Idx) = ix2 r f := by
  obtain ⟨-, -, -, -, -, -, e0, e1, -⟩ := idx_facts t
  refine funext fun a => Fin.ext ?_
  match a with
  | ⟨0, _⟩ => show win0_3.index t (0 : Fin 2) * 1000 + 1 * p.val = r.val; omega
  | ⟨1, _⟩ => show win0_3.index t (1 : Fin 2) * 128 + 1 * f.val = f.val; omega

/-- The same for the second result array. -/
theorem out4_emb (t : Fin cfg0.N) (p : Fin 1000) (f : Fin 128) (r : Fin 50000) (hr : r.val = t.val * 1000 + p.val) :
    (((cfg0.win 4).blk t).view.emb (ix2 p f) : S50000x128.Idx) = ix2 r f := by
  obtain ⟨-, -, -, -, -, -, -, -, e0, e1⟩ := idx_facts t
  refine funext fun a => Fin.ext ?_
  match a with
  | ⟨0, _⟩ => show win0_4.index t (0 : Fin 2) * 1000 + 1 * p.val = r.val; omega
  | ⟨1, _⟩ => show win0_4.index t (1 : Fin 2) * 128 + 1 * f.val = f.val; omega

/-! ## What a point writes back -/

/-- Entry j of the first product of the blocks at point t is the matrix product of the input by the first weights at
    the place of the first result array where that entry sits: the dot product of a row and a column. -/
theorem block3_entry (c : Dev nD) (t : Fin cfg0.N) (j : S1000x128.Idx) :
    k0_pay2 (iblk0 V c 0 t) (iblk0 V c 1 t) j
      = Cert.Spec.matProd (V c main_arg0) (V c main_arg5) (((cfg0.win 3).blk t).view.emb j) := by
  obtain ⟨p, f, rfl⟩ : ∃ (p : Fin 1000) (f : Fin 128), j = ix2 p f := ⟨j 0, j 1, eq_ix2 j⟩
  have ht : t.val < 50 := point_lt t
  have hr : (⟨t.val * 1000 + p.val, by omega⟩ : Fin 50000).val = t.val * 1000 + p.val := rfl
  refine (pay2_apply _ _ p f).trans (Eq.trans ?_
    (congrArg (Cert.Spec.matProd (V c main_arg0) (V c main_arg5)) (out3_emb t p f _ hr)).symm)
  refine Eq.trans ?_ (Cert.Spec.matProd_ix2 _ _ _ _).symm
  exact Finset.sum_congr rfl fun k _ => congrArg₂ (· * ·) (in_blk_apply V c t p k _ hr) (w1_blk_apply V c t k f)

/-- The same for the second product and the second result array. -/
theorem block4_entry (c : Dev nD) (t : Fin cfg0.N) (j : S1000x128.Idx) :
    k0_pay3 (iblk0 V c 0 t) (iblk0 V c 2 t) j
      = Cert.Spec.matProd (V c main_arg0) (V c main_arg6) (((cfg0.win 4).blk t).view.emb j) := by
  obtain ⟨p, f, rfl⟩ : ∃ (p : Fin 1000) (f : Fin 128), j = ix2 p f := ⟨j 0, j 1, eq_ix2 j⟩
  have ht : t.val < 50 := point_lt t
  have hr : (⟨t.val * 1000 + p.val, by omega⟩ : Fin 50000).val = t.val * 1000 + p.val := rfl
  refine (pay3_apply _ _ p f).trans (Eq.trans ?_
    (congrArg (Cert.Spec.matProd (V c main_arg0) (V c main_arg6)) (out4_emb t p f _ hr)).symm)
  refine Eq.trans ?_ (Cert.Spec.matProd_ix2 _ _ _ _).symm
  exact Finset.sum_congr rfl fun k _ => congrArg₂ (· * ·) (in_blk_apply V c t p k _ hr) (w2_blk_apply V c t k f)

/-- What point t writes back to the first result array is block t of the matrix product by the first weights. -/
theorem flushed3_eq (c : Dev nD) (t : Fin cfg0.N) :
    (dat0 V c).flushed 3 t
      = ((cfg0.win 3).blk t).view.read (Elt Ideal) (Cert.Spec.matProd (V c main_arg0) (V c main_arg5)) := by
  show (cfg0.win 3).cut (grid0.coords t) ((dat0 V c).after 3 t) = _
  rw [after0_3]
  unfold out0_3
  rw [View.canon_unit_zero hz]
  simp only [View.ld_unit_zero (S := S1000x128) hz, View.ld_unit_zero (S := S128x128) hz]
  funext j
  exact block3_entry V c t j

/-- What point t writes back to the second result array is block t of the matrix product by the second weights. -/
theorem flushed4_eq (c : Dev nD) (t : Fin cfg0.N) :
    (dat0 V c).flushed 4 t
      = ((cfg0.win 4).blk t).view.read (Elt Ideal) (Cert.Spec.matProd (V c main_arg0) (V c main_arg6)) := by
  show (cfg0.win 4).cut (grid0.coords t) ((dat0 V c).after 4 t) = _
  rw [after0_4]
  unfold out0_4
  rw [View.canon_unit_zero hz]
  simp only [View.ld_unit_zero (S := S1000x128) hz, View.ld_unit_zero (S := S128x128) hz]
  funext j
  exact block4_entry V c t j

/-! ## The blocks cover the arrays -/

/-- An index of the first result array is in point t's block iff each coordinate is in the block's range on its axis. -/
theorem mem_blk3 (t : Fin cfg0.N) (i : S50000x128.Idx) :
    i ∈ ((cfg0.win 3).blk t).view.set ↔ ∀ a : Fin 2, win0_3.index t a * S1000x128.size a ≤ (i a).val ∧ (i a).val < win0_3.index t a * S1000x128.size a + S1000x128.size a := by
  show i ∈ ((View.whole main_v0_0).slice (win0_3.rect t)).set ↔ _
  rw [View.set_slice_whole, Rect.mem_set_unit]
  exact Iff.rfl

/-- The same for the second result array. -/
theorem mem_blk4 (t : Fin cfg0.N) (i : S50000x128.Idx) :
    i ∈ ((cfg0.win 4).blk t).view.set ↔ ∀ a : Fin 2, win0_4.index t a * S1000x128.size a ≤ (i a).val ∧ (i a).val < win0_4.index t a * S1000x128.size a + S1000x128.size a := by
  show i ∈ ((View.whole main_v0_1).slice (win0_4.rect t)).set ↔ _
  rw [View.set_slice_whole, Rect.mem_set_unit]
  exact Iff.rfl

/-- The point whose block holds row r is r / 1000: there is one for every row below 50000. -/
theorem point_of_row (i : S50000x128.Idx) : ∃ t : Fin cfg0.N, t.val = (i 0).val / 1000 := by
  have hN : cfg0.N = 50 := N_0
  have hi0 : (i 0).val < 50000 := (i 0).isLt
  exact ⟨⟨(i 0).val / 1000, by omega⟩, rfl⟩

/-- Every index of the first result array is in the block of the point its row belongs to; every point writes back. -/
theorem cover3 (i : S50000x128.Idx) :
    ∃ t : Fin cfg0.N, (cfg0.win 3).flush t = true ∧ i ∈ ((cfg0.win 3).blk t).view.set := by
  obtain ⟨t, ht⟩ := point_of_row i
  have hi1 : (i 1).val < 128 := (i 1).isLt
  obtain ⟨-, -, -, -, -, -, e0, e1, -⟩ := idx_facts t
  refine ⟨t, flush0_3 t, ?_⟩
  rw [mem_blk3]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 128 ≤ (i 1).val ∧ (i 1).val < win0_3.index t (1 : Fin 2) * 128 + 128; omega

/-- The same for the second result array. -/
theorem cover4 (i : S50000x128.Idx) :
    ∃ t : Fin cfg0.N, (cfg0.win 4).flush t = true ∧ i ∈ ((cfg0.win 4).blk t).view.set := by
  obtain ⟨t, ht⟩ := point_of_row i
  have hi1 : (i 1).val < 128 := (i 1).isLt
  obtain ⟨-, -, -, -, -, -, -, -, e0, e1⟩ := idx_facts t
  refine ⟨t, flush0_4 t, ?_⟩
  rw [mem_blk4]
  intro a
  match a with
  | ⟨0, _⟩ => show win0_4.index t (0 : Fin 2) * 1000 ≤ (i 0).val ∧ (i 0).val < win0_4.index t (0 : Fin 2) * 1000 + 1000; omega
  | ⟨1, _⟩ => show win0_4.index t (1 : Fin 2) * 128 ≤ (i 1).val ∧ (i 1).val < win0_4.index t (1 : Fin 2) * 128 + 128; omega

/-! ## The two result arrays after the region -/

/-- The first result array ends holding the matrix product of the input by the first weights. -/
theorem arr3 (c : Dev nD) :
    ((dat0 (F := Ideal) V c).arrAt 3 cfg0.N : S50000x128.Idx → EReal) = Cert.Spec.matProd (V c main_arg0) (V c main_arg5) :=
  (dat0 V c).arrAt_eq_of_cover 3 _ (fun t _ => flushed3_eq V c t) cover3

/-- The second result array ends holding the matrix product of the input by the second weights. -/
theorem arr4 (c : Dev nD) :
    ((dat0 (F := Ideal) V c).arrAt 4 cfg0.N : S50000x128.Idx → EReal) = Cert.Spec.matProd (V c main_arg0) (V c main_arg6) :=
  (dat0 V c).arrAt_eq_of_cover 4 _ (fun t _ => flushed4_eq V c t) cover4

end Cert.KernelIdeal.ProjArr
end
-- ==== Proof.LibRowOps.lean ====
/-
  Rows of a matrix, at the exact extended-real reading of the float operations.

  • Layout: a length-a vector viewed as an a × 1 column reads entry i at (i, 0); an a × 1 column broadcast along its
    rows to a × b reads (i, 0) at every (i, c); a 1 × 1 × a × b block viewed as an a × b matrix, and back.
  • Reductions along a row: the sum of an a × b matrix over its second axis is, at row r, the sum over k < b of the
    entries (r, k); its maximum from a starting value is the fold of `max` over the same entries.
  • The same for the last axis of a rank-4 array reduced on the host: at (x, y, z) the fold, from the initial value,
    over k of the entries (x, y, z, k).
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

variable {α : Type}

/-! ## Layout -/

/-- A length-a vector cast to an a × 1 column reads, at (i, u), entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column broadcast to a × b reads, at (p, c), the column's entry (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A 1 × 1 × a × b block cast to an a × b matrix reads, at (i, j), the block's entry (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An a × b matrix cast to a 1 × 1 × a × b block reads, at (u, w, i, j), the matrix's entry (i, j). -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_two, Shape.rowMajor_val_four]
    show i.val * b + j.val = ((u.val * 1 + w.val) * a + i.val) * b + j.val
    rw [hu, hw]
    simp only [Nat.zero_mul, Nat.zero_add])

/-! ## Reductions along the rows of a matrix -/

/-- Row r of the matrix with coordinate k inserted on the reduced axis is the entry (r, k). -/
theorem lift_row {a b : ℕ} (h : (⟨2, ![a, b]⟩ : Shape).Reduces [1] ⟨1, ![a]⟩) (r : Fin a) (k : Fin b) :
    h.lift (ix1 r) k = ix2 r k := by
  funext c; apply Fin.ext
  match c with
  | ⟨0, _⟩ => rfl
  | ⟨1, _⟩ => rfl

/-- The sum of a matrix over its second axis, at row r: the sum over k of the entries (r, k). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The maximum of a matrix over its second axis, at row r: the fold of `max`, from the starting word's value, over
    the entries (r, k). -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f : Fin b → EReal => (Finset.univ : Finset (Fin b)).fold max (Ideal.ofBits φ acc) f)
      (funext fun k => congrArg src (lift_row h r k)))

/-! ## A host reduction along the last axis of a rank-4 array -/

/-- (x, y, z) with coordinate k inserted on the last axis is (x, y, z, k). -/
theorem lift_last4 {n0 n1 n2 n3 : ℕ} (h : (⟨4, ![n0, n1, n2, n3]⟩ : Shape).Reduces [3] ⟨3, ![n0, n1, n2]⟩)
    (x : Fin n0) (y : Fin n1) (z : Fin n2) (k : Fin n3) : h.lift (ix3 x y z) k = ix4 x y z k := by
  funext c; apply Fin.ext
  match c with
  | ⟨0, _⟩ => rfl
  | ⟨1, _⟩ => rfl
  | ⟨2, _⟩ => rfl
  | ⟨3, _⟩ => rfl

/-- A host reduction by `max` along the last axis of a rank-4 array, at (x, y, z): the fold of `max`, from the initial
    value, over the entries (x, y, z, k). -/
theorem hostMax_last4_apply {n0 n1 n2 n3 : ℕ} {u : Shape} (src : (⟨4, ![n0, n1, n2, n3]⟩ : Shape).Idx → EReal) (init : u.Idx → EReal)
    (h' : (⟨4, ![n0, n1, n2, n3]⟩ : Shape).ReducesTo [3] ⟨3, ![n0, n1, n2]⟩)
    (h : (⟨4, ![n0, n1, n2, n3]⟩ : Shape).Reduces [3] ⟨3, ![n0, n1, n2]⟩) (hu : 0 < u.numel)
    (x : Fin n0) (y : Fin n1) (z : Fin n2) :
    Host.reduce (max : EReal → EReal → EReal) src init h' hu (ix3 x y z)
      = (Finset.univ : Finset (Fin n3)).fold max (init (Shape.Idx.first hu)) (fun k => src (ix4 x y z k)) :=
  (Host.reduce_eq_fold_single (max : EReal → EReal → EReal) src init h' h hu (ix3 x y z)).trans
    (congrArg (fun f : Fin n3 → EReal => (Finset.univ : Finset (Fin n3)).fold max (init (Shape.Idx.first hu)) f)
      (funext fun k => congrArg src (lift_last4 h x y z k)))

end Cert.LibRowOps

end
-- ==== Proof.ReduceArr.lean ====
import proofs.«121902_j27410481283416_2_alg».proof.Proof.Gen.KernelIdeal.Frame
import proofs.«121902_j27410481283416_2_alg».proof.Proof.Spec
import proofs.«121902_j27410481283416_2_alg».proof.Proof.LibRowOps
import Idealize.ShloMosaic.Lib.Pipeline.Value
import Idealize.ShloMosaic.Lib.ValueLayout
import Idealize.ShloMosaic.PureOps.Ideal.Laws
noncomputable section
open Idealize.ShloMosaic Idealize.ShloMosaic.TcCoe Idealize.SL.Sem Idealize.ShloMosaic.ValueIdx
open Idealize.ShloMosaic.Pipeline (Dat)
namespace Cert.KernelIdeal.ReduceArr
open Cert.KernelIdeal Cert.KernelIdeal.Gen
variable (V : (c : Dev nD) → (b : Ref sig .tc) → Buf (Elt Ideal) ((c : Thread nD τ).loc b))

/-! ## Layout: a matrix as a stack of columns, a column stack spread along the last axis, a sum over the middle axis -/

section Layout
variable {α : Type}

/-- An a × b matrix cast to a × b × 1 reads, at (p, k, u), the matrix's entry (p, k). -/
theorem shapeCast_ab_ab1_apply {a b : ℕ} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_two, Shape.rowMajor_val_three]
    show p.val * b + k.val = (p.val * b + k.val) * 1 + u.val
    rw [hu, Nat.mul_one, Nat.add_zero])

/-- An a × b × 1 array broadcast to a × b × c reads, at (p, k, f), the operand's entry (p, k, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (k : Fin b) (f : Fin c) :
    broadcastTo ⟨3, ![a, b, c]⟩ v h (ix3 p k f) = v (ix3 p k (0 : Fin 1)) := by
  refine broadcastTo_apply v h (ix3 p k f) (ix3 p k (0 : Fin 1)) fun ax => ?_
  match ax with
  | ⟨0, _⟩ =>
    show p.val = if a = 1 then 0 else p.val
    split
    · have := p.isLt; omega
    · rfl
  | ⟨1, _⟩ =>
    show k.val = if b = 1 then 0 else k.val
    split
    · have := k.isLt; omega
    · rfl
  | ⟨2, _⟩ => rfl

end Layout

/-- (p, f) with coordinate k inserted on the middle axis is (p, k, f). -/
theorem lift_mid {a b c : ℕ} (h : (⟨3, ![a, b, c]⟩ : Shape).Reduces [1] ⟨2, ![a, c]⟩) (p : Fin a) (f : Fin c) (k : Fin b) :
    h.lift (ix2 p f) k = ix3 p k f := by
  funext d; apply Fin.ext
  match d with
  | ⟨0, _⟩ => rfl
  | ⟨1, _⟩ => rfl
  | ⟨2, _⟩ => rfl

/-- The sum of a rank-3 array over its middle axis, at (p, f): the sum over k of the entries (p, k, f). -/
theorem midSum_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (f : Fin c) :
    multiReduction .add [1] ⟨2, ![a, c]⟩ src acc h hφ hacc (ix2 p f) = ∑ k : Fin b, src (ix3 p k f) :=
  (Ideal.multiReduction_add_single src acc h hφ hacc (ix2 p f)).trans
    (Finset.sum_congr rfl fun k _ => congrArg src (lift_mid h p f k))

/-! ## The body's arithmetic at one entry -/

/-- Entry (p, f) of the block the body stores: the centre term plus the weighted sum of the 40 gathered rows divided by
    the count, plus the bias, cut below at zero. Only row p of each block operand (and the bias row) enters. -/
theorem pay_apply (x0 : Vec Ideal S200x40x128 .f32) (x1 : Vec Ideal S200x40 .f32) (x3 : Vec Ideal S200x1 .f32)
    (x2 : Vec Ideal S200x128 .f32) (x4 : Vec Ideal S1x128 .f32) (p : Fin 200) (f : Fin 128) :
    k1_pay1 x0 x1 x3 x2 x4 (ix2 p f)
      = max ((x2 (ix2 p f) + Ideal.div (∑ k : Fin 40, x0 (ix3 p k f) * x1 (ix2 p k)) (x3 (ix2 p (0 : Fin 1))))
          + x4 (ix2 (0 : Fin 1) f)) (Ideal.ofBits .f32 0x00000000#32) := by
  unfold k1_pay1
  simp only [shapeCast_self, maximumf_apply, addf_apply, divf_apply, broadcast_apply]
  refine congrArg₂ max (congrArg₂ (· + ·) (congrArg₂ (· + ·) rfl (congrArg₂ Ideal.div ?_ ?_)) ?_) rfl
  · refine (midSum_apply _ _ _ _ _ p f).trans (Finset.sum_congr rfl fun k _ => ?_)
    rw [mulf_apply, broadcastTo_ab1_abc_apply, shapeCast_ab_ab1_apply]
  · exact Cert.LibRowOps.broadcastTo_a1_ab_apply x3 _ p f
  · exact broadcastTo_1b_ab_apply x4 _ p f

/-! ## Which rows a block holds

Point t of the 250 handles rows 200·t … 200·t + 199. Its blocks of the gathered rows, the weights, the centre term and
the count are those same rows (all of the other axes); the bias block is the whole 1 × 128 row at every point. -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 250 points: on the row axis every moving window sits at the output's
    block index, which is the point's number; on every other axis, and for the bias, the block index is 0. -/
theorem idx_facts : ∀ t : Fin cfg1.N,
    win1_0.index t (0 : Fin 3) = win1_5.index t (0 : Fin 2) ∧ win1_0.index t (1 : Fin 3) = 0 ∧ win1_0.index t (2 : Fin 3) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = win1_5.index t (0 : Fin 2) ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The gathered block at point t, entry (p, k, f): the array's entry (200·t + p, k, f). -/
theorem blk0_apply (c : Dev nD) (t : Fin cfg1.N) (p : Fin 200) (k : Fin 40) (f : Fin 128) (r : Fin 50000) (q : Fin 128)
    (hr : r.val = win1_5.index t (0 : Fin 2) * 200 + p.val) (hq : q.val = f.val) :
    (iblk1 V c 0 t : Vec Ideal S200x40x128 .f32) (ix3 p k f) = (V c main_v13 : S50000x40x128.Idx → EReal) (ix3 r k q) := by
  obtain ⟨e00, e01, e02, -⟩ := idx_facts t
  show (V c main_v13 : S50000x40x128.Idx → EReal) (((cfg1.win 0).blk t).view.emb (ix3 p k f)) = _
  refine congrArg _ (funext fun a => Fin.ext ?_)
  match a with
  | ⟨0, _⟩ => show win1_0.index t (0 : Fin 3) * 200 + 1 * p.val = r.val; omega
  | ⟨1, _⟩ => show win1_0.index t (1 : Fin 3) * 40 + 1 * k.val = k.val; omega
  | ⟨2, _⟩ => show win1_0.index t (2 : Fin 3) * 128 + 1 * f.val = q.val; omega

/-- The weight block at point t, entry (p, k): the array's entry (200·t + p, k). -/
theorem blk1_apply (c : Dev nD) (t : Fin cfg1.N) (p : Fin 200) (k : Fin 40) (r : Fin 50000)
    (hr : r.val = win1_5.index t (0 : Fin 2) * 200 + p.val) :
    (iblk1 V c 1 t : Vec Ideal S200x40 .f32) (ix2 p k) = (V c main_v6 : S50000x40.Idx → EReal) (ix2 r k) := by
  obtain ⟨-, -, -, e10, e11, -⟩ := idx_facts t
  show (V c main_v6 : S50000x40.Idx → EReal) (((cfg1.win 1).blk t).view.emb (ix2 p k)) = _
  refine congrArg _ (funext fun a => Fin.ext ?_)
  match a with
  | ⟨0, _⟩ => show win1_1.index t (0 : Fin 2) * 200 + 1 * p.val = r.val; omega
  | ⟨1, _⟩ => show win1_1.index t (1 : Fin 2) * 40 + 1 * k.val = k.val; omega

/-- The centre-term block at point t, entry (p, f): the array's entry (200·t + p, f). -/
theorem blk2_apply (c : Dev nD) (t : Fin cfg1.N) (p : Fin 200) (f : Fin 128) (r : Fin 50000) (q : Fin 128)
    (hr : r.val = win1_5.index t (0 : Fin 2) * 200 + p.val) (hq : q.val = f.val) :
    (iblk1 V c 2 t : Vec Ideal S200x128 .f32) (ix2 p f) = (V c main_v0_0 : S50000x128.Idx → EReal) (ix2 r q) := by
  obtain ⟨-, -, -, -, -, e20, e21, -⟩ := idx_facts t
  show (V c main_v0_0 : S50000x128.Idx → EReal) (((cfg1.win 2).blk t).view.emb (ix2 p f)) = _
  refine congrArg _ (funext fun a => Fin.ext ?_)
  match a with
  | ⟨0, _⟩ => show win1_2.index t (0 : Fin 2) * 200 + 1 * p.val = r.val; omega
  | ⟨1, _⟩ => show win1_2.index t (1 : Fin 2) * 128 + 1 * f.val = q.val; omega

/-- The count block at point t, entry (p, 0): the array's entry (200·t + p, 0). -/
theorem blk3_apply (c : Dev nD) (t : Fin cfg1.N) (p : Fin 200) (r : Fin 50000)
    (hr : r.val = win1_5.index t (0 : Fin 2) * 200 + p.val) :
    (iblk1 V c 3 t : Vec Ideal S200x1 .f32) (ix2 p (0 : Fin 1)) = (V c main_v19 : S50000x1.Idx → EReal) (ix2 r (0 : Fin 1)) := by
  obtain ⟨-, -, -, -, -, -, -, e30, e31, -⟩ := idx_facts t
  show (V c main_v19 : S50000x1.Idx → EReal) (((cfg1.win 3).blk t).view.emb (ix2 p (0 : Fin 1))) = _
  refine congrArg _ (funext fun a => Fin.ext ?_)
  match a with
  | ⟨0, _⟩ => show win1_3.index t (0 : Fin 2) * 200 + 1 * p.val = r.val; omega
  | ⟨1, _⟩ => show win1_3.index t (1 : Fin 2) * 1 + 1 * 0 = 0; omega

/-- The bias block at any point, entry (0, f): the bias row's entry (0, f). -/
theorem blk4_apply (c : Dev nD) (t : Fin cfg1.N) (f : Fin 128) (q : Fin 128) (hq : q.val = f.val) :
    (iblk1 V c 4 t : Vec Ideal S1x128 .f32) (ix2 (0 : Fin 1) f) = (V c main_v20 : S1x128.Idx → EReal) (ix2 (0 : Fin 1) q) := by
  obtain ⟨-, -, -, -, -, -, -, -, -, e40, e41, -⟩ := idx_facts t
  show (V c main_v20 : S1x128.Idx → EReal) (((cfg1.win 4).blk t).view.emb (ix2 (0 : Fin 1) f)) = _
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * f.val = q.val; omega

/-! ## What a point writes back, and the whole array -/

/-- What point t writes back is block t of the target function: entry (p, f) of the stored block is the body's
    arithmetic on row 200·t + p of every operand, which is the target at (200·t + p, f). -/
theorem flushed5_eq (c : Dev nD) (t : Fin cfg1.N) :
    (dat1 (F := Ideal) V c).flushed 5 t
      = ((cfg1.win 5).blk t).view.read (Elt Ideal)
          (Cert.Spec.combine (V c main_v13) (V c main_v6) (V c main_v0_0) (V c main_v19) (V c main_v20)) := by
  show (cfg1.win 5).cut (grid1.coords t) ((dat1 V c).after 5 t) = _
  rw [after1_5]
  unfold out1_5
  rw [View.canon_unit_zero hz2]
  simp only [View.ld_unit_zero (S := S200x40x128) hz3, View.ld_unit_zero (S := S200x40) hz2,
    View.ld_unit_zero (S := S200x128) hz2, View.ld_unit_zero (S := S200x1) hz2, View.ld_unit_zero (S := S1x128) hz2]
  funext j
  obtain ⟨p, f, rfl⟩ : ∃ (p : Fin 200) (f : Fin 128), (j : S200x128.Idx) = ix2 p f := ⟨j 0, j 1, eq_ix2 j⟩
  show k1_pay1 (iblk1 V c 0 t) (iblk1 V c 1 t) (iblk1 V c 3 t) (iblk1 V c 2 t) (iblk1 V c 4 t) (ix2 p f)
    = Cert.Spec.combine (V c main_v13) (V c main_v6) (V c main_v0_0) (V c main_v19) (V c main_v20)
        (((cfg1.win 5).blk t).view.emb (ix2 p f) : S50000x128.Idx)
  have hr : (Cert.Spec.rowOf (((cfg1.win 5).blk t).view.emb (ix2 p f) : S50000x128.Idx)).val
      = win1_5.index t (0 : Fin 2) * 200 + p.val := by
    show win1_5.index t (0 : Fin 2) * 200 + 1 * p.val = _; omega
  have hq : (Cert.Spec.colOf (((cfg1.win 5).blk t).view.emb (ix2 p f) : S50000x128.Idx)).val = f.val := by
    obtain ⟨-, -, -, -, -, -, -, -, -, -, -, -, e51⟩ := idx_facts t
    show win1_5.index t (1 : Fin 2) * 128 + 1 * f.val = _; omega
  refine ((pay_apply _ _ _ _ _ p f).trans ?_).trans
    (congrArg (Cert.Spec.combine (V c main_v13) (V c main_v6) (V c main_v0_0) (V c main_v19) (V c main_v20))
      (Cert.Spec.eq_row_col _).symm)
  refine Eq.trans ?_ (Cert.Spec.combine_ix2 _ _ _ _ _ _ _).symm
  exact congrArg₂ max (congrArg₂ (· + ·) (congrArg₂ (· + ·) (blk2_apply V c t p f _ _ hr hq)
    (congrArg₂ Ideal.div (Finset.sum_congr rfl fun k _ => congrArg₂ (· * ·) (blk0_apply V c t p k f _ _ hr hq) (blk1_apply V c t p k _ hr))
      (blk3_apply V c t p _ hr))) (blk4_apply V c t f _ hq)) rfl

/-- An index of the array is in point t's block iff each coordinate is in the block's range on its axis. -/
theorem mem_blk5 (t : Fin cfg1.N) (i : S50000x128.Idx) :
    i ∈ ((cfg1.win 5).blk t).view.set
      ↔ ∀ a : Fin 2, win1_5.index t a * S200x128.size a ≤ (i a).val ∧ (i a).val < win1_5.index t a * S200x128.size a + S200x128.size a := by
  show i ∈ ((View.whole main_v21).slice (win1_5.rect t)).set ↔ _
  rw [View.set_slice_whole, Rect.mem_set_unit]
  exact Iff.rfl

/-- The 250 blocks of 200 rows fill the 50000 rows: row r is in the block of point r / 200, every column in every block. -/
theorem cover5 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 250 := N_1
  have ht : (i 0).val / 200 < cfg1.N := by rw [hN]; omega
  obtain ⟨-, -, -, -, -, -, -, -, -, -, -, e50, e51⟩ := idx_facts ⟨(i 0).val / 200, ht⟩
  have e50' : win1_5.index ⟨(i 0).val / 200, ht⟩ (0 : Fin 2) = (i 0).val / 200 := e50
  refine ⟨⟨(i 0).val / 200, ht⟩, flush1_5 _, ?_⟩
  rw [mem_blk5]
  intro a
  match a with
  | ⟨0, _⟩ =>
    show win1_5.index ⟨(i 0).val / 200, ht⟩ (0 : Fin 2) * 200 ≤ (i 0).val
      ∧ (i 0).val < win1_5.index ⟨(i 0).val / 200, ht⟩ (0 : Fin 2) * 200 + 200
    rw [e50']; omega
  | ⟨1, _⟩ =>
    show win1_5.index ⟨(i 0).val / 200, ht⟩ (1 : Fin 2) * 128 ≤ (i 1).val
      ∧ (i 1).val < win1_5.index ⟨(i 0).val / 200, ht⟩ (1 : Fin 2) * 128 + 128
    rw [e51]; omega

/-- After the region the output array is the target function of the five operand arrays as the region found them. -/
theorem arr5 (c : Dev nD) :
    ((dat1 (F := Ideal) V c).arrAt 5 cfg1.N : S50000x128.Idx → EReal)
      = Cert.Spec.combine (V c main_v13) (V c main_v6) (V c main_v0_0) (V c main_v19) (V c main_v20) :=
  (dat1 V c).arrAt_eq_of_cover 5 _ (fun t _ => flushed5_eq V c t) cover5

end Cert.KernelIdeal.ReduceArr
end
-- ==== Proof.KValue.lean ====
/-
  The result buffer of the idealized kernel program after its run, as a function of the arguments.

  The last boundary's contents at the result buffer are what the second region's write-backs leave; those are the
  layer's formula of the five buffers the region reads; four of those were written by the host stretch from the
  arguments and the first region's second product, and the fifth is the first region's first product.  Unwinding the
  three stretches in this order gives the result as one function of the launch contents of the arguments.
-/
import proofs.«121902_j27410481283416_2_alg».proof.Proof.Gen.KernelIdeal.Frame
import proofs.«121902_j27410481283416_2_alg».proof.Proof.HostStretch
import proofs.«121902_j27410481283416_2_alg».proof.Proof.Bridge
import proofs.«121902_j27410481283416_2_alg».proof.Proof.Spec
import proofs.«121902_j27410481283416_2_alg».proof.Proof.ProjArr
import proofs.«121902_j27410481283416_2_alg».proof.Proof.ReduceArr
set_option maxRecDepth 16384

noncomputable section

namespace Cert.KernelIdeal.Whole

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- An argument buffer is not written by the first region. -/
theorem W1_arg (c : Dev nD) (b : Ref sig .tc) (hb : ∀ w, Pipeline.arrRef spec0 w ≠ b) :
    W1 m ρ c (Proc.devRef .tc b) = m ((c : Thread nD τ).loc b) :=
  (W1_of_ne m ρ c b hb).trans rfl

/-- After the first region the second output array holds x · Wn … -/
theorem W1_v0_1 (c : Dev nD) : (W1 m ρ c (Proc.devRef .tc main_v0_1) : S50000x128.Idx → EReal)
    = Cert.Spec.matProd (m ((c : Thread nD τ).loc main_arg0)) (m ((c : Thread nD τ).loc main_arg6)) :=
  (W1_arr m ρ c 4).trans (Cert.KernelIdeal.ProjArr.arr4 (V0 m ρ) c)

/-- … and the first x · Wc. -/
theorem W1_v0_0 (c : Dev nD) : (W1 m ρ c (Proc.devRef .tc main_v0_0) : S50000x128.Idx → EReal)
    = Cert.Spec.matProd (m ((c : Thread nD τ).loc main_arg0)) (m ((c : Thread nD τ).loc main_arg5)) :=
  (W1_arr m ρ c 3).trans (Cert.KernelIdeal.ProjArr.arr3 (V0 m ρ) c)

/-- The result buffer after the whole run is `Cert.Bridge.result` of the launch contents of the arguments. -/
theorem W3_result (c : Dev nD) : (W3 m ρ c (Proc.devRef .tc main_v21) : S50000x128.Idx → EReal)
    = Cert.Bridge.result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (W3_arr m ρ c 5).trans ((Cert.KernelIdeal.ReduceArr.arr5 (V2 m ρ) c).trans ?_)
  have e13 : V2 m ρ c main_v13 = Cert.KernelIdeal.Stretch.gathered (F := Ideal)
      (Cert.Spec.matProd (m ((c : Thread nD τ).loc main_arg0)) (m ((c : Thread nD τ).loc main_arg6)))
      (m ((c : Thread nD τ).loc main_arg1)) (m ((c : Thread nD τ).loc main_arg2)) := by
    refine (Cert.KernelIdeal.Stretch.at_v13 (W1 m ρ c)).trans ?_
    rw [W1_v0_1, W1_arg m ρ c main_arg1 (by decide), W1_arg m ρ c main_arg2 (by decide)]
  have e6 : V2 m ρ c main_v6 = Cert.KernelIdeal.Stretch.weight (F := Ideal)
      (m ((c : Thread nD τ).loc main_arg1)) (m ((c : Thread nD τ).loc main_arg2))
      (m ((c : Thread nD τ).loc main_arg3)) (m ((c : Thread nD τ).loc main_arg4)) := by
    refine (Cert.KernelIdeal.Stretch.at_v6 (W1 m ρ c)).trans ?_
    rw [W1_arg m ρ c main_arg1 (by decide), W1_arg m ρ c main_arg2 (by decide), W1_arg m ρ c main_arg3 (by decide),
      W1_arg m ρ c main_arg4 (by decide)]
  have e00 : (V2 m ρ c main_v0_0 : S50000x128.Idx → EReal)
      = Cert.Spec.matProd (m ((c : Thread nD τ).loc main_arg0)) (m ((c : Thread nD τ).loc main_arg5)) :=
    (Cert.KernelIdeal.Stretch.at_v0_0 (W1 m ρ c)).trans (W1_v0_0 m ρ c)
  have e19 : V2 m ρ c main_v19 = Cert.KernelIdeal.Stretch.count (F := Ideal)
      (m ((c : Thread nD τ).loc main_arg1)) (m ((c : Thread nD τ).loc main_arg2)) := by
    refine (Cert.KernelIdeal.Stretch.at_v19 (W1 m ρ c)).trans ?_
    rw [W1_arg m ρ c main_arg1 (by decide), W1_arg m ρ c main_arg2 (by decide)]
  have e20 : V2 m ρ c main_v20 = Cert.KernelIdeal.Stretch.biasRow (F := Ideal) (m ((c : Thread nD τ).loc main_arg7)) := by
    refine (Cert.KernelIdeal.Stretch.at_v20 (W1 m ρ c)).trans ?_
    rw [W1_arg m ρ c main_arg7 (by decide)]
  rw [e13, e6, e00, e19, e20]
  rfl

end Cert.KernelIdeal.Whole

end
-- ==== Proof.lean ====
/-
  The certificate: a two-layer graph-convolution step (centre projection, neighbour projection gathered by index,
  mark-weighted neighbour mean, bias, rectifier) computed by two tiled kernels around a host gather, against the same
  step written with whole-array operations.

  Over the extended reals both programs compute, at row r and feature f,
      max ( (Σ_j x(r, j) · Wc(j, f)  +  (Σ_k G(r, k, f) · mark(r, k) · edge(r, k)) / count(r))  +  bias(f),  0 ),
  G(r, k, ·) the row of x · Wn that the k-th (wrapped) neighbour index of r names.  The kernel program forms the two
  products 1000 rows at a time and multiplies mark by edge before the gathered value; the reference forms whole
  products and multiplies the gathered value by the mark first.  A matrix product is the same sum however its rows are
  tiled, and a product of three extended reals does not depend on its bracketing: so the two results are equal entry
  by entry, with no appeal to the finiteness of the inputs.

  The three frame claims are the generated runs; the idealization rewrote no operation, so the preservation claim is
  trivial.
-/
import proofs.«121902_j27410481283416_2_alg».proof.Defs
import proofs.«121902_j27410481283416_2_alg».proof.Proof.Gen.Kernel
import proofs.«121902_j27410481283416_2_alg».proof.Proof.Gen.Kernel.Skeleton
import proofs.«121902_j27410481283416_2_alg».proof.Proof.Gen.Kernel.Launch
import proofs.«121902_j27410481283416_2_alg».proof.Proof.Gen.Kernel.Points
import proofs.«121902_j27410481283416_2_alg».proof.Proof.Gen.Kernel.Frame
import proofs.«121902_j27410481283416_2_alg».proof.Proof.Gen.KernelIdeal
import proofs.«121902_j27410481283416_2_alg».proof.Proof.Gen.KernelIdeal.Skeleton
import proofs.«121902_j27410481283416_2_alg».proof.Proof.Gen.KernelIdeal.Launch
import proofs.«121902_j27410481283416_2_alg».proof.Proof.Gen.KernelIdeal.Points
import proofs.«121902_j27410481283416_2_alg».proof.Proof.Gen.KernelIdeal.Frame
import proofs.«121902_j27410481283416_2_alg».proof.Proof.Gen.ReferenceIdeal
import proofs.«121902_j27410481283416_2_alg».proof.Proof.Gen.Pre_finite_inputs
import proofs.«121902_j27410481283416_2_alg».proof.Proof.Gen.ReferenceIdeal.Run
import proofs.«121902_j27410481283416_2_alg».proof.Proof.Gen.ReferenceIdeal.Read
import proofs.«121902_j27410481283416_2_alg».proof.Proof.KRun
import proofs.«121902_j27410481283416_2_alg».proof.Proof.KValue
import proofs.«121902_j27410481283416_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten by the idealization. -/
theorem preserves : Cert.preserves_Kernel_KernelIdeal := trivial

/-- From memories that agree on the arguments both programs end with the same result array: the kernel program's
    result buffer holds `Cert.Bridge.result` of the arguments, and so does the reference's. -/
theorem algebraic : Cert.algebraic_KernelIdeal_ReferenceIdeal := by
  intro m ρ m' ρ' _ hagree
  refine ⟨fun c => Cert.Bridge.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Whole.W3_result m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [e0, e1, e2, e3, e4, e5, e6, e7]
    exact (Cert.Bridge.result_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
